-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S8x2048x2048 : Shape := ⟨3, ![8, 2048, 2048]⟩
abbrev S1024x1024 : Shape := ⟨2, ![1024, 1024]⟩
abbrev S1024 : Shape := ⟨1, ![1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg5 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg5
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S8x2048x1024 .f32) (main_arg1 : FVec F S8x2048x1024 .f32) (main_arg2 : FVec F S8x2048x1024 .f32) (main_arg3 : IVec S8x2048x2048 32) (main_arg4 : FVec F S1024x1024 .f32) (main_arg5 : FVec F S1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x2048x1024 .f32 := Host.absf main_arg1
  let main_cst_0 : FVec F S_ .f32 := constant S_ .f32 0x7F800000#32
  let main_v5 : FVec F S8x2048x1024 .f32 := broadcastInDim S8x2048x1024 ![] bcast_S_S8x2048x1024 main_cst_0
  let main_v6 : IVec S8x2048x1024 1 := cmpf .olt main_v4 main_v5
  let main_c_1 : IVec S_ 1 := constantI S_ 1 1#1
  let main_v7 : IVec S_ 1 := (fun x v => Host.reduce IntOp.andi x v reducesTo_S8x2048x1024_S_d0_1_2 h_S_) main_v6 main_c_1
  let main_v8 : IVec S_ 1 := andi main_v3 main_v7
  let main_v9 : FVec F S8x2048x1024 .f32 := Host.absf main_arg2
  let main_cst_2 : FVec F S_ .f32 := constant S_ .f32 0x7F800000#32
  let main_v10 : FVec F S8x2048x1024 .f32 := broadcastInDim S8x2048x1024 ![] bcast_S_S8x2048x1024 main_cst_2
  let main_v11 : IVec S8x2048x1024 1 := cmpf .olt main_v9 main_v10
  let main_c_3 : IVec S_ 1 := constantI S_ 1 1#1
  let main_v12 : IVec S_ 1 := (fun x v => Host.reduce IntOp.andi x v reducesTo_S8x2048x1024_S_d0_1_2 h_S_) main_v11 main_c_3
  let main_v13 : IVec S_ 1 := andi main_v8 main_v12
  let main_v14 : FVec F S1024x1024 .f32 := Host.absf main_arg4
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg5 main_v13 main_v16
-- ==== Kernel.lean ====
abbrev S8x2048x1024 : Shape := ⟨3, ![8, 2048, 1024]⟩
abbrev S8x2048x2048 : Shape := ⟨3, ![8, 2048, 2048]⟩
abbrev S1024x1024 : Shape := ⟨2, ![1024, 1024]⟩
abbrev S1024 : Shape := ⟨1, ![1024]⟩
abbrev S1x1024 : Shape := ⟨2, ![1, 1024]⟩
abbrev S1x512x1024 : Shape := ⟨3, ![1, 512, 1024]⟩
abbrev S1x2048x1024 : Shape := ⟨3, ![1, 2048, 1024]⟩
abbrev S1x512x2048 : Shape := ⟨3, ![1, 512, 2048]⟩
abbrev S512x1024 : Shape := ⟨2, ![512, 1024]⟩
abbrev S2048x1024 : Shape := ⟨2, ![2048, 1024]⟩
abbrev S512x2048 : Shape := ⟨2, ![512, 2048]⟩
abbrev S512 : Shape := ⟨1, ![512]⟩
abbrev S512x1 : Shape := ⟨2, ![512, 1]⟩

abbrev nBuf : Space → Nat
  | .hbm => 12
  | .vmem => 14
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S8x2048x2048, .i32⟩
  | .hbm, ⟨4, _⟩ => ⟨S1024x1024, .f32⟩
  | .hbm, ⟨5, _⟩ => ⟨S1024, .f32⟩
  | .hbm, ⟨6, _⟩ => ⟨S8x2048x1024, .bf16⟩
  | .hbm, ⟨7, _⟩ => ⟨S8x2048x1024, .bf16⟩
  | .hbm, ⟨8, _⟩ => ⟨S1024x1024, .bf16⟩
  | .hbm, ⟨9, _⟩ => ⟨S1x1024, .f32⟩
  | .hbm, ⟨10, _⟩ => ⟨S8x2048x1024, .f32⟩
  | .hbm, ⟨11, _⟩ => ⟨S8x2048x2048, .f32⟩
  | .local _ .vmem, ⟨0, _⟩ => ⟨S1x512x1024, .f32⟩
  | .local _ .vmem, ⟨1, _⟩ => ⟨S1x512x1024, .f32⟩
  | .local _ .vmem, ⟨2, _⟩ => ⟨S1x2048x1024, .bf16⟩
  | .local _ .vmem, ⟨3, _⟩ => ⟨S1x2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x512x2048, .i32⟩
  | .local _ .vmem, ⟨7, _⟩ => ⟨S1x512x2048, .i32⟩
  | .local _ .vmem, ⟨8, _⟩ => ⟨S1024x1024, .bf16⟩
  | .local _ .vmem, ⟨9, _⟩ => ⟨S1x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x512x2048, .f32⟩
  | .local _ .vmem, ⟨13, _⟩ => ⟨S1x512x2048, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  bitsLt_bf16_f32 : FTy.bits .bf16 < FTy.bits .f32
  shapeCasts_S1024_S1x1024 : S1024.ShapeCasts S1x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  broadcasts_S1x1024_S512x1024 : S1x1024.Broadcasts S512x1024
  reduces_S512x2048_S512 : S512x2048.Reduces [1] S512
  shapeCasts_S512_S512x1 : S512.ShapeCasts S512x1
  broadcasts_S512x1_S512x2048 : S512x1.Broadcasts S512x2048
  shapeCasts_S512x2048_S1x512x2048 : S512x2048.ShapeCasts S1x512x2048
  shapeCasts_S512x1024_S1x512x1024 : S512x1024.ShapeCasts S1x512x1024
  dot_S512x1024_S1024x1024_S512x1024_1_0_0_1_n_n_wf : DotDims.WF S512x1024 S1024x1024 S512x1024 [1] [0] [0] [1] [] []
  dot_S512x1024_S2048x1024_S512x2048_1_1_0_0_n_n_wf : DotDims.WF S512x1024 S2048x1024 S512x2048 [1] [1] [0] [0] [] []
  dot_S512x2048_S2048x1024_S512x1024_1_0_0_1_n_n_wf : DotDims.WF S512x2048 S2048x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S8x2048x1024.size a
  hwx0_0 : ∀ i : grid0.Coords, EltTy.bits .f32 = 32 ∨ (Rect.block (s := S8x2048x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x1024.size a ≤ S8x2048x1024.size a
  hwx0_1 : ∀ i : grid0.Coords, EltTy.bits .bf16 = 32 ∨ (Rect.block (s := S8x2048x1024) S1x2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x1024.size a ≤ S8x2048x1024.size a
  hwx0_2 : ∀ i : grid0.Coords, EltTy.bits .bf16 = 32 ∨ (Rect.block (s := S8x2048x1024) S1x2048x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S8x2048x2048.size a
  hwx0_3 : ∀ i : grid0.Coords, EltTy.bits .i32 = 32 ∨ (Rect.block (s := S8x2048x2048) S1x512x2048.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x1024.size a ≤ S8x2048x1024.size a
  hwx0_6 : ∀ i : grid0.Coords, EltTy.bits .f32 = 32 ∨ (Rect.block (s := S8x2048x1024) S1x512x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x2048.size a ≤ S8x2048x2048.size a
  hwx0_7 : ∀ i : grid0.Coords, EltTy.bits .f32 = 32 ∨ (Rect.block (s := S8x2048x2048) S1x512x2048.size (cc0_transform_7 i) (hinb0_7 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2048x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4_0) S1x512x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4_1) S1x512x2048.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S8x2048x2048 : Shape := ⟨3, ![8, 2048, 2048]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 36
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S8x2048x2048, .i32⟩
  | .hbm, ⟨4, _⟩ => ⟨S1024x1024, .f32⟩
  | .hbm, ⟨5, _⟩ => ⟨S1024, .f32⟩
  | .hbm, ⟨6, _⟩ => ⟨S8x2048x1024, .f32⟩
  | .hbm, ⟨7, _⟩ => ⟨S1x1x1024, .f32⟩
  | .hbm, ⟨8, _⟩ => ⟨S8x2048x1024, .f32⟩
  | .hbm, ⟨9, _⟩ => ⟨S8x2048x1024, .f32⟩
  | .hbm, ⟨10, _⟩ => ⟨S8x2048x2048, .f32⟩
  | .hbm, ⟨11, _⟩ => ⟨S_, .f32⟩
  | .hbm, ⟨12, _⟩ => ⟨S8x2048x2048, .f32⟩
  | .hbm, ⟨13, _⟩ => ⟨S8x2048x2048, .f32⟩
  | .hbm, ⟨14, _⟩ => ⟨S_, .i32⟩
  | .hbm, ⟨15, _⟩ => ⟨S8x2048x2048, .i32⟩
  | .hbm, ⟨16, _⟩ => ⟨S8x2048x2048, .i1⟩
  | .hbm, ⟨17, _⟩ => ⟨S_, .f32⟩
  | .hbm, ⟨18, _⟩ => ⟨S_, .f32⟩
  | .hbm, ⟨19, _⟩ => ⟨S8x2048x2048, .f32⟩
  | .hbm, ⟨20, _⟩ => ⟨S8x2048x2048, .f32⟩
  | .hbm, ⟨21, _⟩ => ⟨S_, .f32⟩
  | .hbm, ⟨22, _⟩ => ⟨S8x2048, .f32⟩
  | .hbm, ⟨23, _⟩ => ⟨S_, .f32⟩
  | .hbm, ⟨24, _⟩ => ⟨S8x2048, .f32⟩
  | .hbm, ⟨25, _⟩ => ⟨S8x2048, .f32⟩
  | .hbm, ⟨26, _⟩ => ⟨S8x2048x1, .f32⟩
  | .hbm, ⟨27, _⟩ => ⟨S8x2048x2048, .f32⟩
  | .hbm, ⟨28, _⟩ => ⟨S8x2048x2048, .f32⟩
  | .hbm, ⟨29, _⟩ => ⟨S8x2048x2048, .f32⟩
  | .hbm, ⟨30, _⟩ => ⟨S_, .f32⟩
  | .hbm, ⟨31, _⟩ => ⟨S8x2048, .f32⟩
  | .hbm, ⟨32, _⟩ => ⟨S8x2048x1, .f32⟩
  | .hbm, ⟨33, _⟩ => ⟨S8x2048x2048, .f32⟩
  | .hbm, ⟨34, _⟩ => ⟨S8x2048x2048, .f32⟩
  | .hbm, ⟨35, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_call0_v0 : Ref sig .tc := ⟨.hbm, 18, rfl⟩
abbrev main_call0_v1 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S1024x1024_S8x2048x1024_2_0_01_1_n_n_wf : DotDims.WF S8x2048x1024 S1024x1024 S8x2048x1024 [2] [0] [0, 1] [1] [] []
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S1024x1024_S8x2048x1024_2_0_01_1_n_n : DotDims S8x2048x1024 S1024x1024 S8x2048x1024 where
  lhsContracting := [2]
  rhsContracting := [0]
  lhsNonContracting := [0, 1]
  rhsNonContracting := [1]
  lhsBatch := []
  rhsBatch := []
  wf := dot_S8x2048x1024_S1024x1024_S8x2048x1024_2_0_01_1_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.AttentionRow.lean ====
/-
  Masked softmax attention, one query row at a time, as formulas on the extended reals.

  A query row q (1024 entries) is first projected: proj e = (Σ_d q d · W d e) + β e. The projected row is scored
  against each of the 2048 key rows, score k = (Σ_d proj d · K k d) · 2⁻⁵, and masked: where the row's mask word at
  k is zero the score is replaced by the constant −10³² (the nearest f32). The attention weights are the softmax of
  the masked scores: with top the largest masked score of the row (the maximum taken from −∞), expo k = exp (score k −
  top), total = Σ_k expo k, weight k = expo k / total. The output row is the weights' combination of the value
  rows, mix d = Σ_k weight k · V k d.

  attnOf and outOf are these formulas laid over whole arrays: batch b and query position s pick the query row
  Q[b, s, ·], the mask row M[b, s, ·] and the batch's key and value matrices K[b, ·, ·], V[b, ·, ·]; the weight
  matrix and the bias are shared by all rows.

  Every sum here is a finite sum in a commutative monoid and the maximum is a fold of max, so no order of
  evaluation is fixed; constants stay as the f32 patterns that denote them.
-/
import Idealize.ShloMosaic.PureOps.Ideal
import Idealize.ShloMosaic.Lib.ValueIdx

noncomputable section

open scoped BigOperators

namespace Cert.AttentionRow

open Idealize.ShloMosaic Idealize.ShloMosaic.ValueIdx

section Row

variable (q : Fin 1024 → EReal) (W : Fin 1024 → Fin 1024 → EReal) (β : Fin 1024 → EReal)
  (K : Fin 2048 → Fin 1024 → EReal) (μ : Fin 2048 → BitVec 32) (V : Fin 2048 → Fin 1024 → EReal)

/-- The projected query row: the row times the weight matrix, plus the bias. -/
def proj (e : Fin 1024) : EReal := (∑ d : Fin 1024, q d * W d e) + β e

/-- The masked, scaled score of the row against key row k: the constant −10³² where the mask word is zero, else the
    inner product of the projected row with the key row, times 2⁻⁵. -/
def score (k : Fin 2048) : EReal :=
  Scalar.select (IntOp.cmpi .eq (μ k) 0#32) (Ideal.ofBits .f32 0xF49DC5AE#32)
    ((∑ d : Fin 1024, proj q W β d * K k d) * Ideal.ofBits .f32 0x3D000000#32)

/-- The row's largest masked score, the maximum taken from −∞. -/
def top : EReal :=
  (Finset.univ : Finset (Fin 2048)).fold max (Ideal.ofBits .f32 0xFF800000#32) (score q W β K μ)

/-- The exponential of a masked score's distance below the row's maximum. -/
def expo (k : Fin 2048) : EReal := Ideal.exp (score q W β K μ k - top q W β K μ)

/-- The row's sum of exponentials. -/
def total : EReal := ∑ k : Fin 2048, expo q W β K μ k

/-- The attention weight of key k: its exponential's share of the row's total. -/
def weight (k : Fin 2048) : EReal := Ideal.div (expo q W β K μ k) (total q W β K μ)

/-- The output row: the weights' combination of the value rows. -/
def mix (d : Fin 1024) : EReal := ∑ k : Fin 2048, weight q W β K μ k * V k d

end Row

/-- The attention weights of a whole batch of sequences: entry (b, s, k) is the weight that query position s of
    batch b gives key position k. -/
def attnOf (Q Kx : (⟨3, ![8, 2048, 1024]⟩ : Shape).Idx → EReal) (M : (⟨3, ![8, 2048, 2048]⟩ : Shape).Idx → BitVec 32)
    (W : (⟨2, ![1024, 1024]⟩ : Shape).Idx → EReal) (β : (⟨1, ![1024]⟩ : Shape).Idx → EReal) :
    (⟨3, ![8, 2048, 2048]⟩ : Shape).Idx → EReal := fun i =>
  let b : Fin 8 := i 0
  let s : Fin 2048 := i 1
  let k : Fin 2048 := i 2
  weight (fun d => Q (ix3 b s d)) (fun d e => W (ix2 d e)) (fun e => β (ix1 e)) (fun k d => Kx (ix3 b k d))
    (fun k => M (ix3 b s k)) k

/-- The attention output of a whole batch: entry (b, s, d) is coordinate d of the output row of query position s of
    batch b. -/
def outOf (Q Kx Vx : (⟨3, ![8, 2048, 1024]⟩ : Shape).Idx → EReal) (M : (⟨3, ![8, 2048, 2048]⟩ : Shape).Idx → BitVec 32)
    (W : (⟨2, ![1024, 1024]⟩ : Shape).Idx → EReal) (β : (⟨1, ![1024]⟩ : Shape).Idx → EReal) :
    (⟨3, ![8, 2048, 1024]⟩ : Shape).Idx → EReal := fun i =>
  let b : Fin 8 := i 0
  let s : Fin 2048 := i 1
  let d : Fin 1024 := i 2
  mix (fun d => Q (ix3 b s d)) (fun d e => W (ix2 d e)) (fun e => β (ix1 e)) (fun k d => Kx (ix3 b k d))
    (fun k => M (ix3 b s k)) (fun k d => Vx (ix3 b k d)) d

end Cert.AttentionRow

end
-- ==== Proof.ReferenceAttention.lean ====
/-
  The reference computes masked softmax attention, row by row.

  Stage by stage the reference's operations, read at an index (b, s, ·), are the row formulas at the query row
  Q[b, s, ·], the mask row M[b, s, ·] and the batch's key and value matrices: the first contraction plus the broadcast
  bias is the projected row; the batched contraction against the keys, scaled, under the select on "mask word is
  zero", is the masked score; the maximum-reduction over the key axis, maxed once more with −∞ (which changes nothing:
  the fold already starts at −∞), is the row's maximum; exp of the difference, its sum from 0 over the key axis, and
  the quotient are the weights; the last batched contraction against the values is the output row.

  The index bookkeeping is the same at every stage: a contraction or a reduction reads its operands at the output
  index with the contracted coordinate replaced, and a broadcast reads its operand at the coordinates it keeps.
-/
import proofs.«141851_j39676907880799_2_alg».proof.Proof.Gen.ReferenceIdeal.Read
import proofs.«141851_j39676907880799_2_alg».proof.Proof.AttentionRow

noncomputable section

open scoped BigOperators

namespace Cert.ReferenceAttention

open Cert.ReferenceIdeal Cert.ReferenceIdeal.Gen Cert.ReferenceIdeal.Read Idealize.ShloMosaic
  Idealize.ShloMosaic.ValueIdx Cert.AttentionRow

/-! ## Where each stage reads its operands -/

theorem lidx0 (b : Fin 8) (s : Fin 2048) (e k : Fin 1024) : lidx_main_v0 (ix3 b s e) k = ix3 b s k :=
  funext fun a => by match a with | ⟨0, _⟩ => rfl | ⟨1, _⟩ => rfl | ⟨2, _⟩ => rfl

theorem ridx0 (b : Fin 8) (s : Fin 2048) (e k : Fin 1024) : ridx_main_v0 (ix3 b s e) k = ix2 k e :=
  funext fun a => by match a with | ⟨0, _⟩ => rfl | ⟨1, _⟩ => rfl

theorem idx1_2 (b : Fin 8) (s : Fin 2048) (e : Fin 1024) : idx_main_v1 (idx_main_v2 (ix3 b s e)) = ix1 e :=
  funext fun a => by match a with | ⟨0, _⟩ => rfl

theorem lidx4 (b : Fin 8) (s k : Fin 2048) (d : Fin 1024) : lidx_main_v4 (ix3 b s k) d = ix3 b s d :=
  funext fun a => by match a with | ⟨0, _⟩ => rfl | ⟨1, _⟩ => rfl | ⟨2, _⟩ => rfl

theorem ridx4 (b : Fin 8) (s k : Fin 2048) (d : Fin 1024) : ridx_main_v4 (ix3 b s k) d = ix3 b k d :=
  funext fun a => by match a with | ⟨0, _⟩ => rfl | ⟨1, _⟩ => rfl | ⟨2, _⟩ => rfl

theorem idx13_14 (b : Fin 8) (s k : Fin 2048) : idx_main_v13 (idx_main_v14 (ix3 b s k)) = ix2 b s :=
  funext fun a => by match a with | ⟨0, _⟩ => rfl | ⟨1, _⟩ => rfl

theorem idx17 (b : Fin 8) (s k : Fin 2048) : idx_main_v17 (ix2 b s) k = ix3 b s k :=
  funext fun a => by match a with | ⟨0, _⟩ => rfl | ⟨1, _⟩ => rfl | ⟨2, _⟩ => rfl

theorem idx18_19 (b : Fin 8) (s k : Fin 2048) : idx_main_v18 (idx_main_v19 (ix3 b s k)) = ix2 b s :=
  funext fun a => by match a with | ⟨0, _⟩ => rfl | ⟨1, _⟩ => rfl

theorem lidx21 (b : Fin 8) (s : Fin 2048) (d : Fin 1024) (k : Fin 2048) : lidx_main_v21 (ix3 b s d) k = ix3 b s k :=
  funext fun a => by match a with | ⟨0, _⟩ => rfl | ⟨1, _⟩ => rfl | ⟨2, _⟩ => rfl

theorem ridx21 (b : Fin 8) (s : Fin 2048) (d : Fin 1024) (k : Fin 2048) : ridx_main_v21 (ix3 b s d) k = ix3 b k d :=
  funext fun a => by match a with | ⟨0, _⟩ => rfl | ⟨1, _⟩ => rfl | ⟨2, _⟩ => rfl

/-- The key-axis reduction reads, at (b, s) and key coordinate k, the operand at (b, s, k). -/
theorem lift_at (h : S8x2048x2048.Reduces [2] S8x2048) (b : Fin 8) (s k : Fin 2048) :
    h.lift (ix2 b s) k = ix3 b s k :=
  funext fun a => Fin.ext (by match a with | ⟨0, _⟩ => rfl | ⟨1, _⟩ => rfl | ⟨2, _⟩ => rfl)

/-! ## The stages -/

section Stages

variable (x0 x1 x2 : (⟨S8x2048x1024, .f32⟩ : BufTy).Contents (Elt Ideal))
  (x3 : (⟨S8x2048x2048, .i32⟩ : BufTy).Contents (Elt Ideal))
  (x4 : (⟨S1024x1024, .f32⟩ : BufTy).Contents (Elt Ideal)) (x5 : (⟨S1024, .f32⟩ : BufTy).Contents (Elt Ideal))

/-- The query projection plus bias at (b, s, e) is the projected row of Q[b, s, ·]. -/
theorem v3_at (b : Fin 8) (s : Fin 2048) (e : Fin 1024) :
    val_main_v3 (F := Ideal) x0 x4 x5 (ix3 b s e)
      = proj (fun d => x0 (ix3 b s d)) (fun d e => x4 (ix2 d e)) (fun e => x5 (ix1 e)) e := by
  rw [val_main_v3_apply, val_main_v0_apply, val_main_v2_apply, val_main_v1_apply]
  simp only [lidx0, ridx0, idx1_2]
  rfl

/-- The masked, scaled score at (b, s, k). -/
theorem v9_at (b : Fin 8) (s k : Fin 2048) :
    val_main_v9 (F := Ideal) x0 x1 x3 x4 x5 (ix3 b s k)
      = score (fun d => x0 (ix3 b s d)) (fun d e => x4 (ix2 d e)) (fun e => x5 (ix1 e)) (fun k d => x1 (ix3 b k d))
          (fun k => x3 (ix3 b s k)) k := by
  rw [val_main_v9_apply, val_main_v8_apply, val_main_v7_apply, val_main_c_apply, val_main_call0_v1_apply,
    val_main_call0_v0_apply, val_main_cst_0_apply, val_main_v6_apply, val_main_v5_apply, val_main_cst_apply,
    val_main_v4_apply]
  simp only [lidx4, ridx4, v3_at]
  rfl

/-- The row maximum at (b, s): the reduction is the fold of max from −∞ over the key axis, and taking the maximum
    with −∞ once more returns the fold (it is at least its starting value). -/
theorem v12_at (b : Fin 8) (s : Fin 2048) :
    val_main_v12 (F := Ideal) x0 x1 x3 x4 x5 (ix2 b s)
      = top (fun d => x0 (ix3 b s d)) (fun d e => x4 (ix2 d e)) (fun e => x5 (ix1 e)) (fun k d => x1 (ix3 b k d))
          (fun k => x3 (ix3 b s k)) := by
  have h : S8x2048x2048.Reduces [2] S8x2048 := by decide
  rw [val_main_v12_apply, val_main_v11_apply, val_main_cst_2_apply]
  unfold val_main_v10
  rw [Host.reduce_eq_fold_single FloatOps.maximumf _ _ reducesTo_S8x2048x2048_S8x2048_d2 h h_S_ (ix2 b s)]
  have hf : (val_main_v9 (F := Ideal) x0 x1 x3 x4 x5 ∘ h.lift (ix2 b s))
      = score (fun d => x0 (ix3 b s d)) (fun d e => x4 (ix2 d e)) (fun e => x5 (ix1 e)) (fun k d => x1 (ix3 b k d))
          (fun k => x3 (ix3 b s k)) := funext fun k => by
    show val_main_v9 (F := Ideal) x0 x1 x3 x4 x5 (h.lift (ix2 b s) k) = _
    rw [lift_at h b s k]
    exact v9_at x0 x1 x3 x4 x5 b s k
  rw [hf, val_main_cst_1_apply]
  unfold top
  exact max_eq_right ((Finset.le_fold_max _).mpr (Or.inl le_rfl))

/-- The exponential at (b, s, k). -/
theorem v16_at (b : Fin 8) (s k : Fin 2048) :
    val_main_v16 (F := Ideal) x0 x1 x3 x4 x5 (ix3 b s k)
      = expo (fun d => x0 (ix3 b s d)) (fun d e => x4 (ix2 d e)) (fun e => x5 (ix1 e)) (fun k d => x1 (ix3 b k d))
          (fun k => x3 (ix3 b s k)) k := by
  rw [val_main_v16_apply, val_main_v15_apply, val_main_v14_apply, val_main_v13_apply]
  simp only [idx13_14, v9_at, v12_at]
  rfl

/-- The row's sum of exponentials at (b, s): the sum from the initial value 0. -/
theorem v17_at (b : Fin 8) (s : Fin 2048) :
    val_main_v17 (F := Ideal) x0 x1 x3 x4 x5 (ix2 b s)
      = total (fun d => x0 (ix3 b s d)) (fun d e => x4 (ix2 d e)) (fun e => x5 (ix1 e)) (fun k d => x1 (ix3 b k d))
          (fun k => x3 (ix3 b s k)) := by
  rw [val_main_v17_apply, val_main_cst_3_apply]
  simp only [idx17, v16_at]
  show Ideal.ofBits .f32 0x00000000#32 + _ = _
  rw [Ideal.ofBits_zero_f32, zero_add]
  rfl

/-- The attention weight at (b, s, k). -/
theorem v20_at (b : Fin 8) (s k : Fin 2048) :
    val_main_v20 (F := Ideal) x0 x1 x3 x4 x5 (ix3 b s k)
      = weight (fun d => x0 (ix3 b s d)) (fun d e => x4 (ix2 d e)) (fun e => x5 (ix1 e)) (fun k d => x1 (ix3 b k d))
          (fun k => x3 (ix3 b s k)) k := by
  rw [val_main_v20_apply, val_main_v19_apply, val_main_v18_apply]
  simp only [idx18_19, v16_at, v17_at]
  rfl

/-- The output at (b, s, d). -/
theorem v21_at (b : Fin 8) (s : Fin 2048) (d : Fin 1024) :
    val_main_v21 (F := Ideal) x0 x1 x2 x3 x4 x5 (ix3 b s d)
      = mix (fun d => x0 (ix3 b s d)) (fun d e => x4 (ix2 d e)) (fun e => x5 (ix1 e)) (fun k d => x1 (ix3 b k d))
          (fun k => x3 (ix3 b s k)) (fun k d => x2 (ix3 b k d)) d := by
  rw [val_main_v21_apply]
  simp only [lidx21, ridx21, v20_at]
  rfl

/-- The reference's second result is the attention-weight array. -/
theorem attn_eq : val_main_v20 (F := Ideal) x0 x1 x3 x4 x5 = attnOf x0 x1 x3 x4 x5 := by
  funext i
  obtain ⟨b, s, k, rfl⟩ : ∃ (b : Fin 8) (s k : Fin 2048), i = ix3 b s k := ⟨i 0, i 1, i 2, eq_ix3 i⟩
  exact v20_at x0 x1 x3 x4 x5 b s k

/-- The reference's first result is the attention-output array. -/
theorem out_eq : val_main_v21 (F := Ideal) x0 x1 x2 x3 x4 x5 = outOf x0 x1 x2 x3 x4 x5 := by
  funext i
  obtain ⟨b, s, d, rfl⟩ : ∃ (b : Fin 8) (s : Fin 2048) (d : Fin 1024), i = ix3 b s d := ⟨i 0, i 1, i 2, eq_ix3 i⟩
  exact v21_at x0 x1 x2 x3 x4 x5 b s d

end Stages

end Cert.ReferenceAttention

end
-- ==== Proof.LibColumnCast.lean ====
/-
  A vector cast to a column.

  An `[a]` array cast to `[a, 1]` (what a row reduction that keeps its axis produces) has the operand's entries down
  its one column: the entry at `(i, u)` is the operand's entry at `i`, whatever the unit coordinate `u`. Both indices
  have the same row-major position, `i = i · 1 + u` with `u = 0`.
-/
import Idealize.ShloMosaic.Lib.Pipeline.Value
import Idealize.ShloMosaic.Lib.ValueIdx

namespace Cert.LibColumnCast

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibColumnCast
-- ==== Proof.LibColumnBroadcast.lean ====
/-
  One column broadcast over many.

  An `[a, 1]` array broadcast to `[a, b]` repeats its one column: the entry at `(p, c)` is the operand's entry at
  `(p, 0)`, whatever the column `c`. (The row form, `[1, b]` to `[a, b]`, is the library's
  `broadcastTo_1b_ab_apply`; this is its transpose.)
-/
import Idealize.ShloMosaic.Lib.Pipeline.Value
import Idealize.ShloMosaic.Lib.ValueIdx

namespace Cert.LibColumnBroadcast

open Idealize.ShloMosaic Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnBroadcast
-- ==== Proof.KernelRow.lean ====
/-
  One grid step of the kernel computes masked softmax attention for its 512 query rows.

  The body's arithmetic is a chain of tiles. From the query tile (512 rows), the weight matrix and the bias row it
  forms the projected tile; from that and the batch's key matrix the score tile, scaled by 2⁻⁵ and overwritten by
  −10³² where the mask tile's word is zero; the row maxima (reduced from −∞), kept as a column and broadcast back,
  are subtracted before the exponential; the row sums (reduced from 0), again as a broadcast column, divide it.
  The result is the tile of attention weights, and its product with the batch's value matrix is the output tile.

  Read at row r of the tile, each stage is the corresponding row formula at the tile's row r of queries and of mask
  words: a matrix product into a zero accumulator is the plain sum of products over the contracted coordinate; a
  lane reduction is the fold or the sum over the lane coordinate; a change of float format is the identity; the casts
  that drop or add a leading unit axis, the column cast of a reduced vector and the broadcast of that column keep
  the coordinates that matter.
-/
import proofs.«141851_j39676907880799_2_alg».proof.Proof.Gen.KernelIdeal.Skeleton
import proofs.«141851_j39676907880799_2_alg».proof.Proof.AttentionRow
import proofs.«141851_j39676907880799_2_alg».proof.Proof.LibColumnCast
import proofs.«141851_j39676907880799_2_alg».proof.Proof.LibColumnBroadcast
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelRow

open Cert.KernelIdeal Cert.KernelIdeal.Gen Idealize.ShloMosaic Idealize.ShloMosaic.ValueIdx
  Cert.AttentionRow Cert.LibColumnCast Cert.LibColumnBroadcast

/-! ## The three matrix products at an index

Each has one contracted axis; at output index (r, c) the operands are read at the output's coordinates on their free
axes and at the contraction coordinate on the contracted one. -/

theorem d1_lhs0 (i : S512x1024.Idx) (q : dot_S512x1024_S1024x1024_S512x1024_1_0_0_1_n_n.contr.Idx) : (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem d1_lhs1 (i : S512x1024.Idx) (q : dot_S512x1024_S1024x1024_S512x1024_1_0_0_1_n_n.contr.Idx) : (dot_S512x1024_S1024x1024_S512x1024_1_0_0_1_n_n.lhsIdx i q 1).val = (q ⟨0, by decide⟩).val :=
  dot_S512x1024_S1024x1024_S512x1024_1_0_0_1_n_n.lhsIdx_val_of_single rfl i q
theorem d1_rhs0 (i : S512x1024.Idx) (q : dot_S512x1024_S1024x1024_S512x1024_1_0_0_1_n_n.contr.Idx) : (dot_S512x1024_S1024x1024_S512x1024_1_0_0_1_n_n.rhsIdx i q 0).val = (q ⟨0, by decide⟩).val :=
  dot_S512x1024_S1024x1024_S512x1024_1_0_0_1_n_n.rhsIdx_val_of_single rfl i q
theorem d1_rhs1 (i : S512x1024.Idx) (q : dot_S512x1024_S1024x1024_S512x1024_1_0_0_1_n_n.contr.Idx) : (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- Rows times columns: entry (r, e) of a [512, 1024] by [1024, 1024] product into zero. -/
theorem mm1_apply (A : FVec Ideal S512x1024 .bf16) (B : FVec Ideal S1024x1024 .bf16) (r : Fin 512) (e : Fin 1024) :
    matmul dot_S512x1024_S1024x1024_S512x1024_1_0_0_1_n_n none A B (constant S512x1024 .f32 0x00000000#32) (ix2 r e) = ∑ d : Fin 1024, A (ix2 r d) * B (ix2 d e) := by
  refine (Ideal.matmul_constant_zero_apply dot_S512x1024_S1024x1024_S512x1024_1_0_0_1_n_n none A B (ix2 r e)).trans ?_
  rw [← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 r e) ((ValueIdx.contrEquiv1 dot_S512x1024_S1024x1024_S512x1024_1_0_0_1_n_n 1024 rfl rfl).symm k) = ix2 r k := funext fun a => Fin.ext (by
    match a with
    | ⟨0, _⟩ => exact d1_lhs0 _ _
    | ⟨1, _⟩ => exact (d1_lhs1 _ _).trans hk)
  have er : dot_S512x1024_S1024x1024_S512x1024_1_0_0_1_n_n.rhsIdx (ix2 r e) ((ValueIdx.contrEquiv1 dot_S512x1024_S1024x1024_S512x1024_1_0_0_1_n_n 1024 rfl rfl).symm k) = ix2 k e := funext fun a => Fin.ext (by
    match a with
    | ⟨0, _⟩ => exact (d1_rhs0 _ _).trans hk
    | ⟨1, _⟩ => exact d1_rhs1 _ _)
  rw [el, er]

theorem d2_lhs0 (i : S512x2048.Idx) (q : dot_S512x1024_S2048x1024_S512x2048_1_1_0_0_n_n.contr.Idx) : (dot_S512x1024_S2048x1024_S512x2048_1_1_0_0_n_n.lhsIdx i q 0).val = (i 0).val := by
  unfold DotDims.lhsIdx
  rw [dif_neg (show ¬(0 : Fin S512x1024.rank) ∈ dot_S512x1024_S2048x1024_S512x2048_1_1_0_0_n_n.lhsBatch by decide), dif_pos (show (0 : Fin S512x1024.rank) ∈ dot_S512x1024_S2048x1024_S512x2048_1_1_0_0_n_n.lhsNonContracting by decide)]
  rfl
theorem d2_lhs1 (i : S512x2048.Idx) (q : dot_S512x1024_S2048x1024_S512x2048_1_1_0_0_n_n.contr.Idx) : (dot_S512x1024_S2048x1024_S512x2048_1_1_0_0_n_n.lhsIdx i q 1).val = (q ⟨0, by decide⟩).val :=
  dot_S512x1024_S2048x1024_S512x2048_1_1_0_0_n_n.lhsIdx_val_of_single rfl i q
theorem d2_rhs0 (i : S512x2048.Idx) (q : dot_S512x1024_S2048x1024_S512x2048_1_1_0_0_n_n.contr.Idx) : (dot_S512x1024_S2048x1024_S512x2048_1_1_0_0_n_n.rhsIdx i q 0).val = (i 1).val := by
  unfold DotDims.rhsIdx
  rw [dif_neg (show ¬(0 : Fin S2048x1024.rank) ∈ dot_S512x1024_S2048x1024_S512x2048_1_1_0_0_n_n.rhsBatch by decide), dif_pos (show (0 : Fin S2048x1024.rank) ∈ dot_S512x1024_S2048x1024_S512x2048_1_1_0_0_n_n.rhsNonContracting by decide)]
  rfl
theorem d2_rhs1 (i : S512x2048.Idx) (q : dot_S512x1024_S2048x1024_S512x2048_1_1_0_0_n_n.contr.Idx) : (dot_S512x1024_S2048x1024_S512x2048_1_1_0_0_n_n.rhsIdx i q 1).val = (q ⟨0, by decide⟩).val :=
  dot_S512x1024_S2048x1024_S512x2048_1_1_0_0_n_n.rhsIdx_val_of_single rfl i q

/-- Rows times rows: entry (r, k) of a [512, 1024] by [2048, 1024] product contracted on both second axes, into
    zero. -/
theorem mm2_apply (A : FVec Ideal S512x1024 .bf16) (B : FVec Ideal S2048x1024 .bf16) (r : Fin 512) (k : Fin 2048) :
    matmul dot_S512x1024_S2048x1024_S512x2048_1_1_0_0_n_n none A B (constant S512x2048 .f32 0x00000000#32) (ix2 r k) = ∑ d : Fin 1024, A (ix2 r d) * B (ix2 k d) := by
  refine (Ideal.matmul_constant_zero_apply dot_S512x1024_S2048x1024_S512x2048_1_1_0_0_n_n none A B (ix2 r k)).trans ?_
  rw [← Equiv.sum_comp (ValueIdx.contrEquiv1 dot_S512x1024_S2048x1024_S512x2048_1_1_0_0_n_n 1024 rfl rfl).symm]
  refine Finset.sum_congr rfl fun d _ => ?_
  have hk := ValueIdx.contrEquiv1_symm_val dot_S512x1024_S2048x1024_S512x2048_1_1_0_0_n_n 1024 rfl rfl d
  have el : dot_S512x1024_S2048x1024_S512x2048_1_1_0_0_n_n.lhsIdx (ix2 r k) ((ValueIdx.contrEquiv1 dot_S512x1024_S2048x1024_S512x2048_1_1_0_0_n_n 1024 rfl rfl).symm d) = ix2 r d := funext fun a => Fin.ext (by
    match a with
    | ⟨0, _⟩ => exact d2_lhs0 _ _
    | ⟨1, _⟩ => exact (d2_lhs1 _ _).trans hk)
  have er : dot_S512x1024_S2048x1024_S512x2048_1_1_0_0_n_n.rhsIdx (ix2 r k) ((ValueIdx.contrEquiv1 dot_S512x1024_S2048x1024_S512x2048_1_1_0_0_n_n 1024 rfl rfl).symm d) = ix2 k d := funext fun a => Fin.ext (by
    match a with
    | ⟨0, _⟩ => exact d2_rhs0 _ _
    | ⟨1, _⟩ => exact (d2_rhs1 _ _).trans hk)
  rw [el, er]

theorem d3_lhs0 (i : S512x1024.Idx) (q : dot_S512x2048_S2048x1024_S512x1024_1_0_0_1_n_n.contr.Idx) : (dot_S512x2048_S2048x1024_S512x1024_1_0_0_1_n_n.lhsIdx i q 0).val = (i 0).val := by
  unfold DotDims.lhsIdx
  rw [dif_neg (show ¬(0 : Fin S512x2048.rank) ∈ dot_S512x2048_S2048x1024_S512x1024_1_0_0_1_n_n.lhsBatch by decide), dif_pos (show (0 : Fin S512x2048.rank) ∈ dot_S512x2048_S2048x1024_S512x1024_1_0_0_1_n_n.lhsNonContracting by decide)]
  rfl
theorem d3_lhs1 (i : S512x1024.Idx) (q : dot_S512x2048_S2048x1024_S512x1024_1_0_0_1_n_n.contr.Idx) : (dot_S512x2048_S2048x1024_S512x1024_1_0_0_1_n_n.lhsIdx i q 1).val = (q ⟨0, by decide⟩).val :=
  dot_S512x2048_S2048x1024_S512x1024_1_0_0_1_n_n.lhsIdx_val_of_single rfl i q
theorem d3_rhs0 (i : S512x1024.Idx) (q : dot_S512x2048_S2048x1024_S512x1024_1_0_0_1_n_n.contr.Idx) : (dot_S512x2048_S2048x1024_S512x1024_1_0_0_1_n_n.rhsIdx i q 0).val = (q ⟨0, by decide⟩).val :=
  dot_S512x2048_S2048x1024_S512x1024_1_0_0_1_n_n.rhsIdx_val_of_single rfl i q
theorem d3_rhs1 (i : S512x1024.Idx) (q : dot_S512x2048_S2048x1024_S512x1024_1_0_0_1_n_n.contr.Idx) : (dot_S512x2048_S2048x1024_S512x1024_1_0_0_1_n_n.rhsIdx i q 1).val = (i 1).val := by
  unfold DotDims.rhsIdx
  rw [dif_neg (show ¬(1 : Fin S2048x1024.rank) ∈ dot_S512x2048_S2048x1024_S512x1024_1_0_0_1_n_n.rhsBatch by decide), dif_pos (show (1 : Fin S2048x1024.rank) ∈ dot_S512x2048_S2048x1024_S512x1024_1_0_0_1_n_n.rhsNonContracting by decide)]
  rfl

/-- Rows times columns: entry (r, d) of a [512, 2048] by [2048, 1024] product into zero. -/
theorem mm3_apply (A : FVec Ideal S512x2048 .bf16) (B : FVec Ideal S2048x1024 .bf16) (r : Fin 512) (d : Fin 1024) :
    matmul dot_S512x2048_S2048x1024_S512x1024_1_0_0_1_n_n none A B (constant S512x1024 .f32 0x00000000#32) (ix2 r d) = ∑ k : Fin 2048, A (ix2 r k) * B (ix2 k d) := by
  refine (Ideal.matmul_constant_zero_apply dot_S512x2048_S2048x1024_S512x1024_1_0_0_1_n_n none A B (ix2 r d)).trans ?_
  rw [← Equiv.sum_comp (ValueIdx.contrEquiv1 dot_S512x2048_S2048x1024_S512x1024_1_0_0_1_n_n 2048 rfl rfl).symm]
  refine Finset.sum_congr rfl fun k _ => ?_
  have hk := ValueIdx.contrEquiv1_symm_val dot_S512x2048_S2048x1024_S512x1024_1_0_0_1_n_n 2048 rfl rfl k
  have el : dot_S512x2048_S2048x1024_S512x1024_1_0_0_1_n_n.lhsIdx (ix2 r d) ((ValueIdx.contrEquiv1 dot_S512x2048_S2048x1024_S512x1024_1_0_0_1_n_n 2048 rfl rfl).symm k) = ix2 r k := funext fun a => Fin.ext (by
    match a with
    | ⟨0, _⟩ => exact d3_lhs0 _ _
    | ⟨1, _⟩ => exact (d3_lhs1 _ _).trans hk)
  have er : dot_S512x2048_S2048x1024_S512x1024_1_0_0_1_n_n.rhsIdx (ix2 r d) ((ValueIdx.contrEquiv1 dot_S512x2048_S2048x1024_S512x1024_1_0_0_1_n_n 2048 rfl rfl).symm k) = ix2 k d := funext fun a => Fin.ext (by
    match a with
    | ⟨0, _⟩ => exact (d3_rhs0 _ _).trans hk
    | ⟨1, _⟩ => exact d3_rhs1 _ _)
  rw [el, er]

/-- The exponential of a vector, read at an index. -/
theorem exp_apply {s : Shape} {φ : FTy} (a : FVec Ideal s φ) (i : s.Idx) : exp a i = Ideal.exp (a i) := rfl

/-! ## The two lane reductions at a row -/

/-- The row maximum of a [512, 2048] tile, reduced from −∞: the fold of max over the row's entries. -/
theorem rowMax_apply (X : FVec Ideal S512x2048 .f32) (r : Fin 512) :
    multiReduction .maximumf [1] S512 X 0xFF800000#32 reduces_S512x2048_S512 (.inl rfl) rfl (ix1 r)
      = (Finset.univ : Finset (Fin 2048)).fold max (Ideal.ofBits .f32 0xFF800000#32) (fun k => X (ix2 r k)) := by
  refine (Ideal.multiReduction_maximumf_single X 0xFF800000#32 reduces_S512x2048_S512 _ _ (ix1 r)).trans ?_
  exact congrArg (fun f => (Finset.univ : Finset (Fin 2048)).fold max (Ideal.ofBits .f32 0xFF800000#32) f)
    (funext fun k => congrArg X (funext fun a => Fin.ext (by match a with | ⟨0, _⟩ => rfl | ⟨1, _⟩ => rfl)))

/-- The row sum of a [512, 2048] tile, reduced from 0: the sum of the row's entries. -/
theorem rowSum_apply (X : FVec Ideal S512x2048 .f32) (r : Fin 512) :
    multiReduction .add [1] S512 X 0x00000000#32 reduces_S512x2048_S512 (.inl rfl) rfl (ix1 r)
      = ∑ k : Fin 2048, X (ix2 r k) := by
  refine (Ideal.multiReduction_add_single X 0x00000000#32 reduces_S512x2048_S512 _ _ (ix1 r)).trans ?_
  exact Finset.sum_congr rfl fun k _ =>
    congrArg X (funext fun a => Fin.ext (by match a with | ⟨0, _⟩ => rfl | ⟨1, _⟩ => rfl))

/-! ## The body's tiles -/

section Tiles

variable (P0 : Vec Ideal S1x512x1024 .f32) (P1 : Vec Ideal S1024x1024 .bf16) (P2 : Vec Ideal S1x1024 .f32)
  (P3 : Vec Ideal S1x2048x1024 .bf16) (P4 : Vec Ideal S1x512x2048 .i32)

/-- The projected tile: the query tile times the weight matrix, plus the bias row on every row. -/
def projTile : FVec Ideal S512x1024 .f32 :=
  addf (matmul dot_S512x1024_S1024x1024_S512x1024_1_0_0_1_n_n none
      (truncf .bf16 (shapeCast S512x1024 P0 shapeCasts_S1x512x1024_S512x1024) bitsLt_bf16_f32)
      (shapeCast S1024x1024 P1 shapeCasts_S1024x1024_S1024x1024 : FVec Ideal S1024x1024 .bf16) (constant S512x1024 .f32 0x00000000#32))
    (broadcastTo S512x1024 (shapeCast S1x1024 P2 shapeCasts_S1x1024_S1x1024) broadcasts_S1x1024_S512x1024)

/-- The masked, scaled score tile. -/
def scoreTile : FVec Ideal S512x2048 .f32 :=
  select (cmpi .eq (shapeCast S512x2048 P4 shapeCasts_S1x512x2048_S512x2048) (broadcast S512x2048 0#32))
    (broadcast S512x2048 (Scalar.ofBits .f32 0xF49DC5AE#32))
    (mulf (matmul dot_S512x1024_S2048x1024_S512x2048_1_1_0_0_n_n none (truncf .bf16 (projTile P0 P1 P2) bitsLt_bf16_f32)
        (shapeCast S2048x1024 P3 shapeCasts_S1x2048x1024_S2048x1024 : FVec Ideal S2048x1024 .bf16) (constant S512x2048 .f32 0x00000000#32))
      (broadcast S512x2048 (Scalar.ofBits .f32 0x3D000000#32)))

/-- The tile of exponentials of the scores below their row maxima. -/
def expTile : FVec Ideal S512x2048 .f32 :=
  exp (subf (scoreTile P0 P1 P2 P3 P4)
    (broadcastTo S512x2048
      (shapeCast S512x1
        (multiReduction .maximumf [1] S512 (scoreTile P0 P1 P2 P3 P4) 0xFF800000#32 reduces_S512x2048_S512 (.inl rfl) rfl)
        shapeCasts_S512_S512x1)
      broadcasts_S512x1_S512x2048))

/-- The body's attention-weight tile is the exponentials divided by their row sums. -/
theorem pay4_eq : k0_pay4 (F := Ideal) P0 P1 P2 P3 P4
    = divf (expTile P0 P1 P2 P3 P4)
        (broadcastTo S512x2048
          (shapeCast S512x1
            (multiReduction .add [1] S512 (expTile P0 P1 P2 P3 P4) 0x00000000#32 reduces_S512x2048_S512 (.inl rfl) rfl)
            shapeCasts_S512_S512x1)
          broadcasts_S512x1_S512x2048) := rfl

/-- Row r of the projected tile is the projected row of the tile's query row r. -/
theorem projTile_at (r : Fin 512) (e : Fin 1024) :
    projTile P0 P1 P2 (ix2 r e) = proj (fun d => P0 (ix3 0 r d)) (fun d e => P1 (ix2 d e)) (fun e => P2 (ix2 0 e)) e := by
  unfold projTile proj
  refine (addf_apply _ _ _).trans (congrArg₂ (· + ·) ?_ ?_)
  · refine (mm1_apply _ _ r e).trans (Finset.sum_congr rfl fun d _ => congrArg₂ (· * ·) ?_ ?_)
    · exact shapeCast_1ab_ab_apply P0 _ r d
    · exact congrFun (shapeCast_self P1 _) (ix2 d e)
  · refine (broadcastTo_1b_ab_apply _ _ r e).trans ?_
    exact congrFun (shapeCast_self P2 _) (ix2 0 e)

/-- Row r of the score tile is the masked scores of the tile's query row r. -/
theorem scoreTile_at (r : Fin 512) (k : Fin 2048) :
    scoreTile P0 P1 P2 P3 P4 (ix2 r k) = score (fun d => P0 (ix3 0 r d)) (fun d e => P1 (ix2 d e)) (fun e => P2 (ix2 0 e)) (fun k d => P3 (ix3 0 k d))
          (fun k => P4 (ix3 0 r k)) k := by
  have hc : shapeCast S512x2048 P4 shapeCasts_S1x512x2048_S512x2048 (ix2 r k) = P4 (ix3 0 r k) :=
    shapeCast_1ab_ab_apply P4 _ r k
  have hm : matmul dot_S512x1024_S2048x1024_S512x2048_1_1_0_0_n_n none (truncf .bf16 (projTile P0 P1 P2) bitsLt_bf16_f32)
        (shapeCast S2048x1024 P3 shapeCasts_S1x2048x1024_S2048x1024 : FVec Ideal S2048x1024 .bf16) (constant S512x2048 .f32 0x00000000#32) (ix2 r k)
      = ∑ d : Fin 1024, proj (fun d => P0 (ix3 0 r d)) (fun d e => P1 (ix2 d e)) (fun e => P2 (ix2 0 e)) d * P3 (ix3 0 k d) :=
    (mm2_apply _ _ r k).trans (Finset.sum_congr rfl fun d _ =>
      congrArg₂ (· * ·) (projTile_at P0 P1 P2 r d) (shapeCast_1ab_ab_apply P3 _ k d))
  unfold scoreTile score
  refine (select_apply _ _ _ _).trans ?_
  refine (congrArg (fun c => Scalar.select (IntOp.cmpi .eq c 0#32) _ _) hc).trans ?_
  refine congrArg (fun x => Scalar.select _ _ x) ?_
  exact (mulf_apply _ _ _).trans (congrArg (· * _) hm)

/-- The row maximum column, broadcast back, reads the row's maximum everywhere in row r. -/
theorem topTile_at (r : Fin 512) (k : Fin 2048) :
    broadcastTo S512x2048
      (shapeCast S512x1
        (multiReduction .maximumf [1] S512 (scoreTile P0 P1 P2 P3 P4) 0xFF800000#32 reduces_S512x2048_S512 (.inl rfl) rfl)
        shapeCasts_S512_S512x1)
      broadcasts_S512x1_S512x2048 (ix2 r k) = top (fun d => P0 (ix3 0 r d)) (fun d e => P1 (ix2 d e)) (fun e => P2 (ix2 0 e)) (fun k d => P3 (ix3 0 k d))
          (fun k => P4 (ix3 0 r k)) := by
  refine (broadcastTo_a1_ab_apply _ _ r k).trans ?_
  refine (shapeCast_a_a1_apply _ _ r 0).trans ?_
  refine (rowMax_apply _ r).trans ?_
  unfold top
  exact congrArg (fun f => (Finset.univ : Finset (Fin 2048)).fold max (Ideal.ofBits .f32 0xFF800000#32) f)
    (funext fun k => scoreTile_at P0 P1 P2 P3 P4 r k)

/-- Row r of the exponential tile. -/
theorem expTile_at (r : Fin 512) (k : Fin 2048) :
    expTile P0 P1 P2 P3 P4 (ix2 r k) = expo (fun d => P0 (ix3 0 r d)) (fun d e => P1 (ix2 d e)) (fun e => P2 (ix2 0 e)) (fun k d => P3 (ix3 0 k d))
          (fun k => P4 (ix3 0 r k)) k := by
  unfold expTile expo
  refine (exp_apply _ _).trans (congrArg Ideal.exp ((subf_apply _ _ _).trans (congrArg₂ (· - ·) ?_ ?_)))
  · exact scoreTile_at P0 P1 P2 P3 P4 r k
  · exact topTile_at P0 P1 P2 P3 P4 r k

/-- The row sum column, broadcast back, reads the row's total everywhere in row r. -/
theorem totalTile_at (r : Fin 512) (k : Fin 2048) :
    broadcastTo S512x2048
      (shapeCast S512x1
        (multiReduction .add [1] S512 (expTile P0 P1 P2 P3 P4) 0x00000000#32 reduces_S512x2048_S512 (.inl rfl) rfl)
        shapeCasts_S512_S512x1)
      broadcasts_S512x1_S512x2048 (ix2 r k) = total (fun d => P0 (ix3 0 r d)) (fun d e => P1 (ix2 d e)) (fun e => P2 (ix2 0 e)) (fun k d => P3 (ix3 0 k d))
          (fun k => P4 (ix3 0 r k)) := by
  refine (broadcastTo_a1_ab_apply _ _ r k).trans ?_
  refine (shapeCast_a_a1_apply _ _ r 0).trans ?_
  refine (rowSum_apply _ r).trans ?_
  unfold total
  exact Finset.sum_congr rfl fun k _ => expTile_at P0 P1 P2 P3 P4 r k

/-- Row r of the body's attention-weight tile is the attention weights of the tile's query row r. -/
theorem pay4_at (r : Fin 512) (k : Fin 2048) :
    k0_pay4 (F := Ideal) P0 P1 P2 P3 P4 (ix2 r k) = weight (fun d => P0 (ix3 0 r d)) (fun d e => P1 (ix2 d e)) (fun e => P2 (ix2 0 e)) (fun k d => P3 (ix3 0 k d))
          (fun k => P4 (ix3 0 r k)) k := by
  rw [pay4_eq]
  unfold weight
  refine (divf_apply _ _ _).trans (congrArg₂ Ideal.div ?_ ?_)
  · exact expTile_at P0 P1 P2 P3 P4 r k
  · exact totalTile_at P0 P1 P2 P3 P4 r k

/-- Row r of the body's output tile (with its leading unit axis) is the output row of the tile's query row r against
    the value matrix. -/
theorem pay2_at (P5 : Vec Ideal S1x2048x1024 .bf16) (u : Fin 1) (r : Fin 512) (d : Fin 1024) :
    k0_pay2 (F := Ideal) (k0_pay3 P5) (k0_pay4 P0 P1 P2 P3 P4) (ix3 u r d)
      = mix (fun d => P0 (ix3 0 r d)) (fun d e => P1 (ix2 d e)) (fun e => P2 (ix2 0 e)) (fun k d => P3 (ix3 0 k d))
          (fun k => P4 (ix3 0 r k)) (fun k d => P5 (ix3 0 k d)) d := by
  unfold k0_pay2 k0_pay3 mix
  refine (shapeCast_ab_1ab_apply _ _ u r d).trans ?_
  refine (mm3_apply _ _ r d).trans (Finset.sum_congr rfl fun k _ => congrArg₂ (· * ·) ?_ ?_)
  · exact pay4_at P0 P1 P2 P3 P4 r k
  · exact shapeCast_1ab_ab_apply P5 _ k d

end Tiles

end Cert.KernelRow

end
-- ==== Proof.KernelBlocks.lean ====
/-
  What one grid step leaves in its two output blocks, in terms of the whole arrays.

  A grid step works on batch b and on 512 consecutive query positions s(0), …, s(511). Suppose its input blocks are
  the corresponding parts of whole arrays: the query block's row r is Q[b, s r, ·], the mask block's row r is
  M[b, s r, ·], the key and value blocks are K[b, ·, ·] and V[b, ·, ·], and the weight and bias blocks are W and β
  themselves (the bias as a one-row matrix). Then the attention block the step stores holds, at (r, k), entry
  (b, s r, k) of the attention weights of the whole arrays, and the output block holds, at (r, d), entry (b, s r, d)
  of the attention output.

  Both stores write the whole block through one rectangle at zero offsets, and every load reads a whole block the
  same way, so what is left in a block is the stored value itself; the rest is the row reading of the body's tiles.
-/
import proofs.«141851_j39676907880799_2_alg».proof.Proof.Gen.KernelIdeal.Value
import proofs.«141851_j39676907880799_2_alg».proof.Proof.KernelRow

noncomputable section

namespace Cert.KernelBlocks

open Cert.KernelIdeal Cert.KernelIdeal.Gen Idealize.ShloMosaic Idealize.ShloMosaic.ValueIdx Cert.AttentionRow
  Cert.KernelRow

theorem hz3 : (![0, 0, 0] : Fin 3 → Nat) = fun _ => 0 := funext fun a => by fin_cases a <;> rfl
theorem hz2 : (![0, 0] : Fin 2 → Nat) = fun _ => 0 := funext fun a => by fin_cases a <;> rfl

/-- Dropping the leading unit coordinate of a block index. -/
theorem ix7_at (u : Fin 1) (r : Fin 512) (k : Fin 2048) : Value.ix7_0 (ix3 u r k) = ix2 r k :=
  funext fun a => by match a with | ⟨0, _⟩ => rfl | ⟨1, _⟩ => rfl

section Blocks

variable (Q K Vx : (⟨3, ![8, 2048, 1024]⟩ : Shape).Idx → EReal) (M : (⟨3, ![8, 2048, 2048]⟩ : Shape).Idx → BitVec 32)
  (W : (⟨2, ![1024, 1024]⟩ : Shape).Idx → EReal) (β : (⟨1, ![1024]⟩ : Shape).Idx → EReal)
  (x0 : Vec Ideal S1x512x1024 .f32) (x1 x2 : Vec Ideal S1x2048x1024 .bf16) (x3 : Vec Ideal S1x512x2048 .i32)
  (x4 : Vec Ideal S1024x1024 .bf16) (x5 : Vec Ideal S1x1024 .f32) (b : Fin 8) (s : Fin 512 → Fin 2048)

/-- The attention block of a step on batch b and query positions s: entry (r, k) is the attention weight
    (b, s r, k) of the whole arrays. -/
theorem attn_block
    (h0 : ∀ (r : Fin 512) (d : Fin 1024), x0 (ix3 0 r d) = Q (ix3 b (s r) d))
    (h1 : ∀ (k : Fin 2048) (d : Fin 1024), x1 (ix3 0 k d) = K (ix3 b k d))
    (h3 : ∀ (r : Fin 512) (k : Fin 2048), x3 (ix3 0 r k) = M (ix3 b (s r) k))
    (h4 : ∀ (d e : Fin 1024), x4 (ix2 d e) = W (ix2 d e))
    (h5 : ∀ (e : Fin 1024), x5 (ix2 0 e) = β (ix1 e))
    (y : S1x512x2048.Idx) :
    out0_7 x0 x1 x2 x3 x4 x5 y = attnOf Q K M W β (ix3 b (s (y 1)) (y 2)) := by
  obtain ⟨u, r, k, rfl⟩ : ∃ (u : Fin 1) (r : Fin 512) (k : Fin 2048), y = ix3 u r k := ⟨y 0, y 1, y 2, eq_ix3 y⟩
  unfold out0_7
  refine (Value.canon7_eq _ _ _ _ _ _).trans ?_
  show k0_pay4 (View.ld x0 r0_0) (View.ld x4 r0_1) (View.ld x5 r0_2) (View.ld x1 r0_3) (View.ld x3 r0_4)
      (Value.ix7_0 (ix3 u r k)) = _
  simp only [View.ld_unit_zero (S := S1x512x1024) hz3, View.ld_unit_zero (S := S1024x1024) hz2,
    View.ld_unit_zero (S := S1x1024) hz2, View.ld_unit_zero (S := S1x2048x1024) hz3,
    View.ld_unit_zero (S := S1x512x2048) hz3, ix7_at]
  refine (pay4_at x0 x4 x5 x1 x3 r k).trans ?_
  have e0 : (fun d => x0 (ix3 0 r d)) = fun d => Q (ix3 b (s r) d) := funext (h0 r)
  have e1 : (fun k d => x1 (ix3 0 k d)) = fun k d => K (ix3 b k d) := funext fun k => funext (h1 k)
  have e3 : (fun k => x3 (ix3 0 r k)) = fun k => M (ix3 b (s r) k) := funext (h3 r)
  have e4 : (fun d e => x4 (ix2 d e)) = fun d e => W (ix2 d e) := funext fun d => funext (h4 d)
  have e5 : (fun e => x5 (ix2 0 e)) = fun e => β (ix1 e) := funext h5
  rw [e0, e1, e3, e4, e5]
  rfl

/-- The output block of the same step: entry (r, d) is the attention output (b, s r, d) of the whole arrays. -/
theorem out_block
    (h0 : ∀ (r : Fin 512) (d : Fin 1024), x0 (ix3 0 r d) = Q (ix3 b (s r) d))
    (h1 : ∀ (k : Fin 2048) (d : Fin 1024), x1 (ix3 0 k d) = K (ix3 b k d))
    (h2 : ∀ (k : Fin 2048) (d : Fin 1024), x2 (ix3 0 k d) = Vx (ix3 b k d))
    (h3 : ∀ (r : Fin 512) (k : Fin 2048), x3 (ix3 0 r k) = M (ix3 b (s r) k))
    (h4 : ∀ (d e : Fin 1024), x4 (ix2 d e) = W (ix2 d e))
    (h5 : ∀ (e : Fin 1024), x5 (ix2 0 e) = β (ix1 e))
    (y : S1x512x1024.Idx) :
    out0_6 x0 x1 x2 x3 x4 x5 y = outOf Q K Vx M W β (ix3 b (s (y 1)) (y 2)) := by
  obtain ⟨u, r, d, rfl⟩ : ∃ (u : Fin 1) (r : Fin 512) (d : Fin 1024), y = ix3 u r d := ⟨y 0, y 1, y 2, eq_ix3 y⟩
  unfold out0_6
  rw [View.canon_unit_zero hz3]
  simp only [View.ld_unit_zero (S := S1x512x1024) hz3, View.ld_unit_zero (S := S1024x1024) hz2,
    View.ld_unit_zero (S := S1x1024) hz2, View.ld_unit_zero (S := S1x2048x1024) hz3,
    View.ld_unit_zero (S := S1x512x2048) hz3]
  refine (pay2_at x0 x4 x5 x1 x3 x2 u r d).trans ?_
  have e0 : (fun d => x0 (ix3 0 r d)) = fun d => Q (ix3 b (s r) d) := funext (h0 r)
  have e1 : (fun k d => x1 (ix3 0 k d)) = fun k d => K (ix3 b k d) := funext fun k => funext (h1 k)
  have e2 : (fun k d => x2 (ix3 0 k d)) = fun k d => Vx (ix3 b k d) := funext fun k => funext (h2 k)
  have e3 : (fun k => x3 (ix3 0 r k)) = fun k => M (ix3 b (s r) k) := funext (h3 r)
  have e4 : (fun d e => x4 (ix2 d e)) = fun d e => W (ix2 d e) := funext fun d => funext (h4 d)
  have e5 : (fun e => x5 (ix2 0 e)) = fun e => β (ix1 e) := funext h5
  rw [e0, e1, e2, e3, e4, e5]
  rfl

end Blocks

end Cert.KernelBlocks

end
-- ==== Proof.KernelArrays.lean ====
/-
  The kernel's two result arrays after the run.

  The launch has 8 × 4 grid points; point t = (b, j) works on batch b and query positions 512·j, …, 512·j + 511. Its
  query and mask blocks are those rows of the query and mask arrays; its key and value blocks are batch b of the
  arrays the host wrote before the launch, which are the key and value arguments with their float format changed
  (the identity on the extended reals); its weight block is the weight argument converted likewise, and its bias
  block the bias argument reshaped to one row. These relations between block indices are decided once over the 32
  grid points. So each point writes back block (b, j) of the attention-weight array and of the attention-output
  array of the arguments; the 32 blocks tile both arrays (row s of batch b lies in the block of point (b, s / 512)), so
  after the run the two result arrays are those arrays, and the arguments are unchanged.
-/
import proofs.«141851_j39676907880799_2_alg».proof.Proof.Gen.KernelIdeal.Value
import proofs.«141851_j39676907880799_2_alg».proof.Proof.KernelBlocks
import Idealize.ShloMosaic.Lib.StableHlo.Run
import Idealize.ShloMosaic.Lib.Pipeline.Value

set_option maxRecDepth 16384

noncomputable section

namespace Cert.KernelArrays

open Cert.KernelIdeal Cert.KernelIdeal.Gen Idealize.ShloMosaic Idealize.ShloMosaic.TcCoe Idealize.SL.Sem
  Idealize.ShloMosaic.StableHlo Idealize.ShloMosaic.ValueIdx Cert.AttentionRow Cert.KernelBlocks
open Idealize.ShloMosaic.Pipeline (Dat)

variable (m : (ℓ : Loc nD τ sig) → Buf (Elt Ideal) ℓ) (ρ : Dev nD → PrngReg)

/-! ## The arrays the host wrote before the launch -/

/-- The key array as staged: the key argument (a change of float format is the identity). -/
theorem V_keys (c : Dev nD) :
    (V m c main_v0 : S8x2048x1024.Idx → EReal) = ((m ((c : Thread nD τ).loc main_arg1)) : S8x2048x1024.Idx → EReal) := by
  dsimp only [V, hostOps0]; after_results; rfl

/-- The value array as staged: the value argument. -/
theorem V_values (c : Dev nD) :
    (V m c main_v1 : S8x2048x1024.Idx → EReal) = ((m ((c : Thread nD τ).loc main_arg2)) : S8x2048x1024.Idx → EReal) := by
  dsimp only [V, hostOps0]; after_results; rfl

/-- The weight matrix as staged: the weight argument. -/
theorem V_weights (c : Dev nD) :
    (V m c main_v2 : S1024x1024.Idx → EReal) = ((m ((c : Thread nD τ).loc main_arg4)) : S1024x1024.Idx → EReal) := by
  dsimp only [V, hostOps0]; after_results; rfl

/-- The bias as staged: the bias argument reshaped to one row. -/
theorem V_bias (c : Dev nD) :
    (V m c main_v3 : S1x1024.Idx → EReal)
      = shapeCast S1x1024 ((m ((c : Thread nD τ).loc main_arg5)) : S1024.Idx → EReal) shapeCasts_S1024_S1x1024 := by
  dsimp only [V, hostOps0]; after_results; rfl

/-- Entry (0, e) of the one-row bias is entry e of the bias argument. -/
theorem V_bias_at (c : Dev nD) (e : Fin 1024) :
    (V m c main_v3 : S1x1024.Idx → EReal) (ix2 0 e) = ((m ((c : Thread nD τ).loc main_arg5)) : S1024.Idx → EReal) (ix1 e) := by
  rw [V_bias]
  exact shapeCast_a_1a_apply _ _ 0 e

/-! ## The grid's block indices -/

/-- Decided over the 32 grid points: the query, mask and both output windows move together over (batch, row block);
    the key and value windows follow the batch only; the weight and bias windows stay; the indices are in range. -/
theorem idx_facts : ∀ t : Fin cfg0.N,
    win0_0.index t (0 : Fin 3) = win0_7.index t (0 : Fin 3) ∧ win0_0.index t (1 : Fin 3) = win0_7.index t (1 : Fin 3)
    ∧ win0_0.index t (2 : Fin 3) = 0
    ∧ win0_1.index t (0 : Fin 3) = win0_7.index t (0 : Fin 3) ∧ win0_1.index t (1 : Fin 3) = 0 ∧ win0_1.index t (2 : Fin 3) = 0
    ∧ win0_2.index t (0 : Fin 3) = win0_7.index t (0 : Fin 3) ∧ win0_2.index t (1 : Fin 3) = 0 ∧ win0_2.index t (2 : Fin 3) = 0
    ∧ win0_3.index t (0 : Fin 3) = win0_7.index t (0 : Fin 3) ∧ win0_3.index t (1 : Fin 3) = win0_7.index t (1 : Fin 3)
    ∧ win0_3.index t (2 : Fin 3) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) = win0_7.index t (0 : Fin 3) ∧ win0_6.index t (1 : Fin 3) = win0_7.index t (1 : Fin 3)
    ∧ win0_6.index t (2 : Fin 3) = 0
    ∧ win0_7.index t (0 : Fin 3) ≤ 7 ∧ win0_7.index t (1 : Fin 3) ≤ 3 ∧ win0_7.index t (2 : Fin 3) = 0 :=
  (by decide +kernel : ∀ t : Fin grid0.N, _)

/-- Every (batch, row block) is some point's. -/
theorem idx_onto : ∀ (q0 : Fin 8) (q1 : Fin 4), ∃ t : Fin cfg0.N, win0_7.index t = ![q0.val, q1.val, 0] :=
  (by decide +kernel : ∀ (q0 : Fin 8) (q1 : Fin 4), ∃ t : Fin grid0.N, win0_7.index t = ![q0.val, q1.val, 0])

/-! ## The input blocks of a point, in terms of the arguments -/

section Point

variable (c : Dev nD) (t : Fin cfg0.N)

/-- The batch a point works on. -/
def batchOf : Fin 8 := ⟨win0_7.index t (0 : Fin 3), by have := (idx_facts t).2.2.2.2.2.2.2.2.2.2.2.2.2.2.2.2.2.2.2.1; omega⟩

/-- The query position of row r of a point's blocks. -/
def rowOf (r : Fin 512) : Fin 2048 :=
  ⟨win0_7.index t (1 : Fin 3) * 512 + r.val, by have := (idx_facts t).2.2.2.2.2.2.2.2.2.2.2.2.2.2.2.2.2.2.2.2.1; omega⟩

theorem blk_queries (r : Fin 512) (d : Fin 1024) :
    iblk m c 0 t (ix3 0 r d) = (m ((c : Thread nD τ).loc main_arg0)) (ix3 (batchOf t) (rowOf t r) d) := by
  obtain ⟨a00, a01, a02, -⟩ := idx_facts t
  show V m c main_arg0 (((cfg0.win 0).blk t).view.emb (ix3 0 r d)) = _
  rw [V_main_arg0]
  refine congrArg _ (funext fun a => Fin.ext ?_)
  match a with
  | ⟨0, _⟩ => show win0_0.index t (0 : Fin 3) * 1 + 1 * 0 = win0_7.index t (0 : Fin 3); omega
  | ⟨1, _⟩ => show win0_0.index t (1 : Fin 3) * 512 + 1 * r.val = win0_7.index t (1 : Fin 3) * 512 + r.val; omega
  | ⟨2, _⟩ => show win0_0.index t (2 : Fin 3) * 1024 + 1 * d.val = d.val; omega

theorem blk_keys (k : Fin 2048) (d : Fin 1024) :
    iblk m c 1 t (ix3 0 k d) = (m ((c : Thread nD τ).loc main_arg1)) (ix3 (batchOf t) k d) := by
  obtain ⟨-, -, -, a10, a11, a12, -⟩ := idx_facts t
  show (V m c main_v0 : S8x2048x1024.Idx → EReal) (((cfg0.win 1).blk t).view.emb (ix3 0 k d)) = _
  refine (congrFun (V_keys m c) _).trans (congrArg _ (funext fun a => Fin.ext ?_))
  match a with
  | ⟨0, _⟩ => show win0_1.index t (0 : Fin 3) * 1 + 1 * 0 = win0_7.index t (0 : Fin 3); omega
  | ⟨1, _⟩ => show win0_1.index t (1 : Fin 3) * 2048 + 1 * k.val = k.val; omega
  | ⟨2, _⟩ => show win0_1.index t (2 : Fin 3) * 1024 + 1 * d.val = d.val; omega

theorem blk_values (k : Fin 2048) (d : Fin 1024) :
    iblk m c 2 t (ix3 0 k d) = (m ((c : Thread nD τ).loc main_arg2)) (ix3 (batchOf t) k d) := by
  obtain ⟨-, -, -, -, -, -, a20, a21, a22, -⟩ := idx_facts t
  show (V m c main_v1 : S8x2048x1024.Idx → EReal) (((cfg0.win 2).blk t).view.emb (ix3 0 k d)) = _
  refine (congrFun (V_values m c) _).trans (congrArg _ (funext fun a => Fin.ext ?_))
  match a with
  | ⟨0, _⟩ => show win0_2.index t (0 : Fin 3) * 1 + 1 * 0 = win0_7.index t (0 : Fin 3); omega
  | ⟨1, _⟩ => show win0_2.index t (1 : Fin 3) * 2048 + 1 * k.val = k.val; omega
  | ⟨2, _⟩ => show win0_2.index t (2 : Fin 3) * 1024 + 1 * d.val = d.val; omega

theorem blk_mask (r : Fin 512) (k : Fin 2048) :
    iblk m c 3 t (ix3 0 r k) = (m ((c : Thread nD τ).loc main_arg3)) (ix3 (batchOf t) (rowOf t r) k) := by
  obtain ⟨-, -, -, -, -, -, -, -, -, a30, a31, a32, -⟩ := idx_facts t
  show V m c main_arg3 (((cfg0.win 3).blk t).view.emb (ix3 0 r k)) = _
  rw [V_main_arg3]
  refine congrArg _ (funext fun a => Fin.ext ?_)
  match a with
  | ⟨0, _⟩ => show win0_3.index t (0 : Fin 3) * 1 + 1 * 0 = win0_7.index t (0 : Fin 3); omega
  | ⟨1, _⟩ => show win0_3.index t (1 : Fin 3) * 512 + 1 * r.val = win0_7.index t (1 : Fin 3) * 512 + r.val; omega
  | ⟨2, _⟩ => show win0_3.index t (2 : Fin 3) * 2048 + 1 * k.val = k.val; omega

theorem blk_weights (d e : Fin 1024) :
    iblk m c 4 t (ix2 d e) = (m ((c : Thread nD τ).loc main_arg4)) (ix2 d e) := by
  obtain ⟨-, -, -, -, -, -, -, -, -, -, -, -, a40, a41, -⟩ := idx_facts t
  show (V m c main_v2 : S1024x1024.Idx → EReal) (((cfg0.win 4).blk t).view.emb (ix2 d e)) = _
  refine (congrFun (V_weights m c) _).trans (congrArg _ (funext fun a => Fin.ext ?_))
  match a with
  | ⟨0, _⟩ => show win0_4.index t (0 : Fin 2) * 1024 + 1 * d.val = d.val; omega
  | ⟨1, _⟩ => show win0_4.index t (1 : Fin 2) * 1024 + 1 * e.val = e.val; omega

theorem blk_bias (e : Fin 1024) :
    iblk m c 5 t (ix2 0 e) = (m ((c : Thread nD τ).loc main_arg5)) (ix1 e) := by
  obtain ⟨-, -, -, -, -, -, -, -, -, -, -, -, -, -, a50, a51, -⟩ := idx_facts t
  show (V m c main_v3 : S1x1024.Idx → EReal) (((cfg0.win 5).blk t).view.emb (ix2 0 e)) = _
  refine Eq.trans (congrArg _ (funext fun a => Fin.ext ?_)) (V_bias_at m c e)
  match a with
  | ⟨0, _⟩ => show win0_5.index t (0 : Fin 2) * 1 + 1 * 0 = 0; omega
  | ⟨1, _⟩ => show win0_5.index t (1 : Fin 2) * 1024 + 1 * e.val = e.val; omega

end Point

/-! ## The two result arrays -/

/-- The attention weights of the launch arguments. -/
abbrev attnArr (c : Dev nD) : S8x2048x2048.Idx → EReal :=
  attnOf (m ((c : Thread nD τ).loc main_arg0)) (m ((c : Thread nD τ).loc main_arg1)) (m ((c : Thread nD τ).loc main_arg3)) (m ((c : Thread nD τ).loc main_arg4)) (m ((c : Thread nD τ).loc main_arg5))

/-- The attention output of the launch arguments. -/
abbrev outArr (c : Dev nD) : S8x2048x1024.Idx → EReal :=
  outOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- What point t writes back to the attention-weight array is its block of the attention weights. -/
theorem flushed7_eq (c : Dev nD) (t : Fin cfg0.N) :
    (dats m 0 c).flushed 7 t = ((cfg0.win 7).blk t).view.read (Elt Ideal) (attnArr m c) := by
  rw [Value.flushed7]
  obtain ⟨-, -, -, -, -, -, -, -, -, -, -, -, -, -, -, -, -, -, -, b0, b1, b2⟩ := idx_facts t
  funext y
  have hy0 : (y 0).val < 1 := (y 0).isLt
  have hy1 : (y 1).val < 512 := (y 1).isLt
  have hy2 : (y 2).val < 2048 := (y 2).isLt
  show out0_7 (iblk m c 0 t) (iblk m c 1 t) (iblk m c 2 t) (iblk m c 3 t) (iblk m c 4 t) (iblk m c 5 t) y
    = attnArr m c (((cfg0.win 7).blk t).view.emb y)
  have hemb : ((cfg0.win 7).blk t).view.emb y = ix3 (batchOf t) (rowOf t (y 1)) (y 2) := funext fun a => Fin.ext (by
    match a with
    | ⟨0, _⟩ => show win0_7.index t (0 : Fin 3) * 1 + 1 * (y 0).val = win0_7.index t (0 : Fin 3); omega
    | ⟨1, _⟩ => show win0_7.index t (1 : Fin 3) * 512 + 1 * (y 1).val = win0_7.index t (1 : Fin 3) * 512 + (y 1).val; omega
    | ⟨2, _⟩ => show win0_7.index t (2 : Fin 3) * 2048 + 1 * (y 2).val = (y 2).val; omega)
  rw [hemb]
  exact attn_block (m ((c : Thread nD τ).loc main_arg0)) (m ((c : Thread nD τ).loc main_arg1)) (m ((c : Thread nD τ).loc main_arg3)) (m ((c : Thread nD τ).loc main_arg4)) (m ((c : Thread nD τ).loc main_arg5))
    (iblk m c 0 t) (iblk m c 1 t) (iblk m c 2 t) (iblk m c 3 t) (iblk m c 4 t) (iblk m c 5 t) (batchOf t) (rowOf t)
    (blk_queries m c t) (blk_keys m c t) (blk_mask m c t) (blk_weights m c t) (blk_bias m c t) y

/-- What point t writes back to the attention-output array is its block of the attention output. -/
theorem flushed6_eq (c : Dev nD) (t : Fin cfg0.N) :
    (dats m 0 c).flushed 6 t = ((cfg0.win 6).blk t).view.read (Elt Ideal) (outArr m c) := by
  rw [Value.flushed6]
  obtain ⟨-, -, -, -, -, -, -, -, -, -, -, -, -, -, -, -, a60, a61, a62, b0, b1, b2⟩ := idx_facts t
  funext y
  have hy0 : (y 0).val < 1 := (y 0).isLt
  have hy1 : (y 1).val < 512 := (y 1).isLt
  have hy2 : (y 2).val < 1024 := (y 2).isLt
  show out0_6 (iblk m c 0 t) (iblk m c 1 t) (iblk m c 2 t) (iblk m c 3 t) (iblk m c 4 t) (iblk m c 5 t) y
    = outArr m c (((cfg0.win 6).blk t).view.emb y)
  have hemb : ((cfg0.win 6).blk t).view.emb y = ix3 (batchOf t) (rowOf t (y 1)) (y 2) := funext fun a => Fin.ext (by
    match a with
    | ⟨0, _⟩ => show win0_6.index t (0 : Fin 3) * 1 + 1 * (y 0).val = win0_7.index t (0 : Fin 3); omega
    | ⟨1, _⟩ => show win0_6.index t (1 : Fin 3) * 512 + 1 * (y 1).val = win0_7.index t (1 : Fin 3) * 512 + (y 1).val; omega
    | ⟨2, _⟩ => show win0_6.index t (2 : Fin 3) * 1024 + 1 * (y 2).val = (y 2).val; omega)
  rw [hemb]
  exact out_block (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    (iblk m c 0 t) (iblk m c 1 t) (iblk m c 2 t) (iblk m c 3 t) (iblk m c 4 t) (iblk m c 5 t) (batchOf t) (rowOf t)
    (blk_queries m c t) (blk_keys m c t) (blk_values m c t) (blk_mask m c t) (blk_weights m c t) (blk_bias m c t) y

/-! ## The blocks tile the arrays -/

/-- An index of the attention-weight array is in point t's block iff each coordinate is in the block's range. -/
theorem mem_blk7 (t : Fin cfg0.N) (i : S8x2048x2048.Idx) :
    i ∈ ((cfg0.win 7).blk t).view.set ↔ ∀ a : Fin 3, win0_7.index t a * S1x512x2048.size a ≤ (i a).val
      ∧ (i a).val < win0_7.index t a * S1x512x2048.size a + S1x512x2048.size a := by
  show i ∈ ((View.whole main_v4_1).slice (win0_7.rect t)).set ↔ _
  rw [View.set_slice_whole, Rect.mem_set_unit]
  exact Iff.rfl

/-- The same for the attention-output array. -/
theorem mem_blk6 (t : Fin cfg0.N) (i : S8x2048x1024.Idx) :
    i ∈ ((cfg0.win 6).blk t).view.set ↔ ∀ a : Fin 3, win0_6.index t a * S1x512x1024.size a ≤ (i a).val
      ∧ (i a).val < win0_6.index t a * S1x512x1024.size a + S1x512x1024.size a := by
  show i ∈ ((View.whole main_v4_0).slice (win0_6.rect t)).set ↔ _
  rw [View.set_slice_whole, Rect.mem_set_unit]
  exact Iff.rfl

/-- Row s of batch b lies in the block of point (b, s / 512). -/
theorem cover7 (i : S8x2048x2048.Idx) :
    ∃ t : Fin cfg0.N, (cfg0.win 7).flush t = true ∧ i ∈ ((cfg0.win 7).blk t).view.set := by
  have hi0 : (i 0).val < 8 := (i 0).isLt
  have hi1 : (i 1).val < 2048 := (i 1).isLt
  have hi2 : (i 2).val < 2048 := (i 2).isLt
  obtain ⟨t, ht⟩ := idx_onto ⟨(i 0).val, hi0⟩ ⟨(i 1).val / 512, by omega⟩
  have q0 : win0_7.index t (0 : Fin 3) = (i 0).val := congrFun ht 0
  have q1 : win0_7.index t (1 : Fin 3) = (i 1).val / 512 := congrFun ht 1
  have q2 : win0_7.index t (2 : Fin 3) = 0 := congrFun ht 2
  refine ⟨t, flush0_7 t, ?_⟩
  rw [mem_blk7]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 512 ≤ (i 1).val ∧ (i 1).val < win0_7.index t (1 : Fin 3) * 512 + 512; omega
  | ⟨2, _⟩ => show win0_7.index t (2 : Fin 3) * 2048 ≤ (i 2).val ∧ (i 2).val < win0_7.index t (2 : Fin 3) * 2048 + 2048; omega

theorem cover6 (i : S8x2048x1024.Idx) :
    ∃ t : Fin cfg0.N, (cfg0.win 6).flush t = true ∧ i ∈ ((cfg0.win 6).blk t).view.set := by
  have hi0 : (i 0).val < 8 := (i 0).isLt
  have hi1 : (i 1).val < 2048 := (i 1).isLt
  have hi2 : (i 2).val < 1024 := (i 2).isLt
  obtain ⟨t, ht⟩ := idx_onto ⟨(i 0).val, hi0⟩ ⟨(i 1).val / 512, by omega⟩
  have q0 : win0_7.index t (0 : Fin 3) = (i 0).val := congrFun ht 0
  have q1 : win0_7.index t (1 : Fin 3) = (i 1).val / 512 := congrFun ht 1
  obtain ⟨-, -, -, -, -, -, -, -, -, -, -, -, -, -, -, -, a60, a61, a62, -⟩ := idx_facts t
  refine ⟨t, flush0_6 t, ?_⟩
  rw [mem_blk6]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 512 ≤ (i 1).val ∧ (i 1).val < win0_6.index t (1 : Fin 3) * 512 + 512; omega
  | ⟨2, _⟩ => show win0_6.index t (2 : Fin 3) * 1024 ≤ (i 2).val ∧ (i 2).val < win0_6.index t (2 : Fin 3) * 1024 + 1024; omega

/-- After the run the attention-weight array holds the attention weights of the arguments. -/
theorem final7 (c : Dev nD) : (dats m 0 c).arrAt 7 cfg0.N = attnArr m c :=
  (dats m 0 c).arrAt_eq_of_cover 7 (attnArr m c) (fun t _ => flushed7_eq m c t) cover7

/-- After the run the attention-output array holds the attention output of the arguments. -/
theorem final6 (c : Dev nD) : (dats m 0 c).arrAt 6 cfg0.N = outArr m c :=
  (dats m 0 c).arrAt_eq_of_cover 6 (outArr m c) (fun t _ => flushed6_eq m c t) cover6

/-! ## The run -/

/-- Every weakly fair execution of the kernel's program terminates with the first result at the attention output and
    the second at the attention weights of the arguments, the arguments unchanged. -/
theorem run : θ_run defs (onTc (τ := τ) (main (F := Ideal))) ⟨m, fun _ => 0, ρ⟩ fun r => ∀ c : Dev nD,
      r.2.mem ((c : Thread nD τ).loc main_v4_0) = outArr m c
      ∧ r.2.mem ((c : Thread nD τ).loc main_v4_1) = attnArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final6 m c), (h c).2.1.trans (final7 m c), (h c).2.2⟩)
    (Value.run_blocks m ρ)

end Cert.KernelArrays

end
-- ==== Proof.lean ====
/-
  Masked softmax attention with a projected query: the kernel against its jnp reference, on the extended reals.

  Both programs take a batch of 8 sequences of 2048 positions and 1024 features: queries Q, keys K, values V, an
  integer mask M, a weight matrix W and a bias β. Both compute, for batch b and query position s,

      proj   = Q[b, s, ·] · W + β
      score k = (proj · K[b, k, ·]) · 2⁻⁵, replaced by the constant −10³² where M[b, s, k] = 0
      attn k  = exp (score k − max_k score) / Σ_k exp (score k − max_k score)
      out    = Σ_k attn k · V[b, k, ·]

  and return (out, attn). The reference does it with whole-array contractions and reductions; the kernel does it 512
  query rows at a time over an 8 × 4 grid, with matrix products into zero accumulators, lane reductions, and changes
  of float format in between. On the extended reals a change of format is the identity, a product into a zero
  accumulator is the plain sum of products, and sums and maxima do not depend on the order or grouping of their terms,
  so the two programs are the same function of the arguments: no cancellation and no distributive law is involved, and
  the finiteness of the inputs is not used. The reference takes the row maximum once more against −∞, which returns
  the maximum unchanged.

  Proof/AttentionRow.lean states the row formulas and the two whole-array functions; Proof/ReferenceAttention.lean
  shows that the reference's results are those functions; Proof/KernelRow.lean, Proof/KernelBlocks.lean and
  Proof/KernelArrays.lean show the same of the kernel's results, from one row of one grid step up to the whole
  arrays. The three frames are the generated runs; the kernel's idealization rewrote nothing.
-/
import proofs.«141851_j39676907880799_2_alg».proof.Defs
import proofs.«141851_j39676907880799_2_alg».proof.Proof.Gen.Kernel
import proofs.«141851_j39676907880799_2_alg».proof.Proof.Gen.Kernel.Skeleton
import proofs.«141851_j39676907880799_2_alg».proof.Proof.Gen.Kernel.Launch
import proofs.«141851_j39676907880799_2_alg».proof.Proof.Gen.Kernel.Points
import proofs.«141851_j39676907880799_2_alg».proof.Proof.Gen.Kernel.Frame
import proofs.«141851_j39676907880799_2_alg».proof.Proof.Gen.KernelIdeal
import proofs.«141851_j39676907880799_2_alg».proof.Proof.Gen.KernelIdeal.Skeleton
import proofs.«141851_j39676907880799_2_alg».proof.Proof.Gen.KernelIdeal.Launch
import proofs.«141851_j39676907880799_2_alg».proof.Proof.Gen.KernelIdeal.Points
import proofs.«141851_j39676907880799_2_alg».proof.Proof.Gen.KernelIdeal.Frame
import proofs.«141851_j39676907880799_2_alg».proof.Proof.Gen.ReferenceIdeal
import proofs.«141851_j39676907880799_2_alg».proof.Proof.Gen.Pre_finite_inputs
import proofs.«141851_j39676907880799_2_alg».proof.Proof.Gen.KernelIdeal.Value
import proofs.«141851_j39676907880799_2_alg».proof.Proof.Gen.ReferenceIdeal.Run
import proofs.«141851_j39676907880799_2_alg».proof.Proof.Gen.ReferenceIdeal.Read
import proofs.«141851_j39676907880799_2_alg».proof.Proof.ReferenceAttention
import proofs.«141851_j39676907880799_2_alg».proof.Proof.KernelArrays
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the arguments, the kernel's two result arrays and the reference's are the attention
    output and the attention weights of the same arguments. -/
theorem algebraic : Cert.algebraic_KernelIdeal_ReferenceIdeal := by
  intro m ρ m' ρ' _ hagree
  refine ⟨fun c => Cert.KernelArrays.outArr m c, fun c => Cert.KernelArrays.attnArr m c, Cert.KernelArrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5⟩ := hagree c
    rw [Cert.ReferenceIdeal.Read.val_main_v21_eq, Cert.ReferenceAttention.out_eq, h0, h1, h2, h3, h4, h5]
  · obtain ⟨h0, h1, -, h3, h4, h5⟩ := hagree c
    rw [Cert.ReferenceIdeal.Read.val_main_v20_eq, Cert.ReferenceAttention.attn_eq, h0, h1, h3, h4, h5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
